-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v18) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x4096 : Shape := ⟨2, ![16384, 4096]⟩
abbrev S4096 : Shape := ⟨1, ![4096]⟩
abbrev S_ : Shape := ⟨0, ![]⟩

class Facts : Prop where
  bcast_S_S16384x4096 : S_.BroadcastsInDim S16384x4096 (![] : Fin 0 → Fin S16384x4096.rank)
  reducesTo_S16384x4096_S_d0_1 : S16384x4096.ReducesTo [0, 1] S_
  h_S_ : 0 < S_.numel
  bcast_S_S4096 : S_.BroadcastsInDim S4096 (![] : Fin 0 → Fin S4096.rank)
  reducesTo_S4096_S_d0 : S4096.ReducesTo [0] S_

variable [Facts]

def fn {F : FTy → Type} [FloatOps F] (main_arg0 : FVec F S16384x4096 .f32) (main_arg1 : FVec F S16384x4096 .f32) (main_arg2 : FVec F S4096 .f32) : IVec S_ 1 :=
  let main_v0 : FVec F S16384x4096 .f32 := Host.absf main_arg0
  let main_cst : FVec F S_ .f32 := constant S_ .f32 0x7F800000#32
  let main_v1 : FVec F S16384x4096 .f32 := broadcastInDim S16384x4096 ![] bcast_S_S16384x4096 main_cst
  let main_v2 : IVec S16384x4096 1 := cmpf .olt main_v0 main_v1
  let main_c : IVec S_ 1 := constantI S_ 1 1#1
  let main_v3 : IVec S_ 1 := (fun x v => Host.reduce IntOp.andi x v reducesTo_S16384x4096_S_d0_1 h_S_) main_v2 main_c
  let main_v4 : FVec F S16384x4096 .f32 := Host.absf main_arg1
  let main_cst_0 : FVec F S_ .f32 := constant S_ .f32 0x7F800000#32
  let main_v5 : FVec F S16384x4096 .f32 := broadcastInDim S16384x4096 ![] bcast_S_S16384x4096 main_cst_0
  let main_v6 : IVec S16384x4096 1 := cmpf .olt main_v4 main_v5
  let main_c_1 : IVec S_ 1 := constantI S_ 1 1#1
  let main_v7 : IVec S_ 1 := (fun x v => Host.reduce IntOp.andi x v reducesTo_S16384x4096_S_d0_1 h_S_) main_v6 main_c_1
  let main_v8 : IVec S_ 1 := andi main_v3 main_v7
  let main_v9 : FVec F S4096 .f32 := Host.absf main_arg2
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  main_v13
-- ==== Kernel.lean ====
abbrev S16384x4096 : Shape := ⟨2, ![16384, 4096]⟩
abbrev S4096 : Shape := ⟨1, ![4096]⟩
abbrev S1x4096 : Shape := ⟨2, ![1, 4096]⟩
abbrev S2x16384x4096 : Shape := ⟨3, ![2, 16384, 4096]⟩
abbrev S128x4096 : Shape := ⟨2, ![128, 4096]⟩
abbrev S2x128x4096 : Shape := ⟨3, ![2, 128, 4096]⟩
abbrev S1x128x4096 : Shape := ⟨3, ![1, 128, 4096]⟩

abbrev nBuf : Space → Nat
  | .hbm => 8
  | .vmem => 8
  | .smem => 0
  | _ => 0

abbrev bufTy : (tb : Table) → Fin (tcTables nBuf tb) → BufTy
  | .hbm, ⟨0, _⟩ => ⟨S16384x4096, .f32⟩
  | .hbm, ⟨1, _⟩ => ⟨S16384x4096, .f32⟩
  | .hbm, ⟨2, _⟩ => ⟨S4096, .f32⟩
  | .hbm, ⟨3, _⟩ => ⟨S4096, .f32⟩
  | .hbm, ⟨4, _⟩ => ⟨S1x4096, .f32⟩
  | .hbm, ⟨5, _⟩ => ⟨S4096, .f32⟩
  | .hbm, ⟨6, _⟩ => ⟨S1x4096, .f32⟩
  | .hbm, ⟨7, _⟩ => ⟨S2x16384x4096, .f32⟩
  | .local _ .vmem, ⟨0, _⟩ => ⟨S128x4096, .f32⟩
  | .local _ .vmem, ⟨1, _⟩ => ⟨S128x4096, .f32⟩
  | .local _ .vmem, ⟨2, _⟩ => ⟨S128x4096, .f32⟩
  | .local _ .vmem, ⟨3, _⟩ => ⟨S128x4096, .f32⟩
  | .local _ .vmem, ⟨4, _⟩ => ⟨S1x4096, .f32⟩
  | .local _ .vmem, ⟨5, _⟩ => ⟨S1x4096, .f32⟩
  | .local _ .vmem, ⟨6, _⟩ => ⟨S2x128x4096, .f32⟩
  | .local _ .vmem, ⟨7, _⟩ => ⟨S2x128x4096, .f32⟩
  | _, _ => ⟨S16384x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S128x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x4096 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S2x128x4096 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  shapeCasts_S4096_S1x4096 : S4096.ShapeCasts S1x4096
  inb_S1x4096_S1x4096_0_0 : ∀ a, (![0, 0] : Fin 2 → Nat) a + S1x4096.size a ≤ S1x4096.size a
  h_S1x4096 : 0 < S1x4096.numel
  shapeCasts_S1x4096_S1x4096 : S1x4096.ShapeCasts S1x4096
  inb_S128x4096_S128x4096_0_0 : ∀ a, (![0, 0] : Fin 2 → Nat) a + S128x4096.size a ≤ S128x4096.size a
  h_S128x4096 : 0 < S128x4096.numel
  broadcasts_S1x4096_S128x4096 : S1x4096.Broadcasts S128x4096
  inb_S2x128x4096_S1x128x4096_0_0_0 : ∀ a, (![0, 0, 0] : Fin 3 → Nat) a + S1x128x4096.size a ≤ S2x128x4096.size a
  h_S1x128x4096 : 0 < S1x128x4096.numel
  shapeCasts_S1x128x4096_S128x4096 : S1x128x4096.ShapeCasts S128x4096
  shapeCasts_S128x4096_S1x128x4096 : S128x4096.ShapeCasts S1x128x4096
  inb_S2x128x4096_S1x128x4096_1_0_0 : ∀ a, (![1, 0, 0] : Fin 3 → Nat) a + S1x128x4096.size a ≤ S2x128x4096.size a
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x4096.size a ≤ S16384x4096.size a
  hwx0_0 : ∀ i : grid0.Coords, EltTy.bits .f32 = 32 ∨ (Rect.block (s := S16384x4096) S128x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S128x4096.size a ≤ S16384x4096.size a
  hwx0_1 : ∀ i : grid0.Coords, EltTy.bits .f32 = 32 ∨ (Rect.block (s := S16384x4096) S128x4096.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x4096.size a ≤ S1x4096.size a
  hwx0_2 : ∀ i : grid0.Coords, EltTy.bits .f32 = 32 ∨ (Rect.block (s := S1x4096) S1x4096.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x4096.size a ≤ S1x4096.size a
  hwx0_3 : ∀ i : grid0.Coords, EltTy.bits .f32 = 32 ∨ (Rect.block (s := S1x4096) S1x4096.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S2x128x4096.size a ≤ S2x16384x4096.size a
  hwx0_4 : ∀ i : grid0.Coords, EltTy.bits .f32 = 32 ∨ (Rect.block (s := S2x16384x4096) S2x128x4096.size (cc0_transform_4 i) (hinb0_4 i)).WholeWords (EltTy.packing .f32)

variable [Facts₀]

abbrev win0_0 : Pipeline.Window sig grid0 :=
  Pipeline.Window.ofSpec (Memref.whole main_arg0) S128x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S128x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x4096.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3) S1x4096.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v4) S2x128x4096.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S16384x4096 : Shape := ⟨2, ![16384, 4096]⟩
abbrev S4096 : Shape := ⟨1, ![4096]⟩
abbrev S1x4096 : Shape := ⟨2, ![1, 4096]⟩
abbrev S1x16384x4096 : Shape := ⟨3, ![1, 16384, 4096]⟩
abbrev S2x16384x4096 : Shape := ⟨3, ![2, 16384, 4096]⟩

abbrev nBuf : Space → Nat
  | .hbm => 22
  | .vmem => 0
  | .smem => 0
  | _ => 0

abbrev bufTy : (tb : Table) → Fin (tcTables nBuf tb) → BufTy
  | .hbm, ⟨0, _⟩ => ⟨S16384x4096, .f32⟩
  | .hbm, ⟨1, _⟩ => ⟨S16384x4096, .f32⟩
  | .hbm, ⟨2, _⟩ => ⟨S4096, .f32⟩
  | .hbm, ⟨3, _⟩ => ⟨S4096, .f32⟩
  | .hbm, ⟨4, _⟩ => ⟨S4096, .f32⟩
  | .hbm, ⟨5, _⟩ => ⟨S1x4096, .f32⟩
  | .hbm, ⟨6, _⟩ => ⟨S16384x4096, .f32⟩
  | .hbm, ⟨7, _⟩ => ⟨S16384x4096, .f32⟩
  | .hbm, ⟨8, _⟩ => ⟨S1x4096, .f32⟩
  | .hbm, ⟨9, _⟩ => ⟨S16384x4096, .f32⟩
  | .hbm, ⟨10, _⟩ => ⟨S16384x4096, .f32⟩
  | .hbm, ⟨11, _⟩ => ⟨S16384x4096, .f32⟩
  | .hbm, ⟨12, _⟩ => ⟨S1x4096, .f32⟩
  | .hbm, ⟨13, _⟩ => ⟨S16384x4096, .f32⟩
  | .hbm, ⟨14, _⟩ => ⟨S16384x4096, .f32⟩
  | .hbm, ⟨15, _⟩ => ⟨S1x4096, .f32⟩
  | .hbm, ⟨16, _⟩ => ⟨S16384x4096, .f32⟩
  | .hbm, ⟨17, _⟩ => ⟨S16384x4096, .f32⟩
  | .hbm, ⟨18, _⟩ => ⟨S16384x4096, .f32⟩
  | .hbm, ⟨19, _⟩ => ⟨S1x16384x4096, .f32⟩
  | .hbm, ⟨20, _⟩ => ⟨S1x16384x4096, .f32⟩
  | .hbm, ⟨21, _⟩ => ⟨S2x16384x4096, .f32⟩
  | _, _ => ⟨S16384x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩

abbrev nD : Nat := 1
abbrev τ : Topo := Topo.v7x

variable {F : FTy → Type} [FloatOps F]

class Facts₀ : Prop where
  bcast_S4096_S1x4096_1 : S4096.BroadcastsInDim S1x4096 (![1] : Fin 1 → Fin S1x4096.rank)
  bcast_S1x4096_S16384x4096_0_1 : S1x4096.BroadcastsInDim S16384x4096 (![0, 1] : Fin 2 → Fin S16384x4096.rank)
  bcast_S16384x4096_S1x16384x4096_1_2 : S16384x4096.BroadcastsInDim S1x16384x4096 (![1, 2] : Fin 2 → Fin S1x16384x4096.rank)
  concatenates_S1x16384x4096_S1x16384x4096_S2x16384x4096_d0 : Shape.Concatenates [S1x16384x4096, S1x16384x4096] S2x16384x4096 0

variable [Facts₀]

class Facts : Prop extends Facts₀ where

variable [Facts]
-- ==== Proof.Rotation.lean ====
/-
  The rotation of the columns of a complex matrix by a row of angles.

  The arguments are the real and imaginary parts `xr`, `xi` of a 16384 × 4096 complex matrix and a row `φ` of
  4096 angles. Column `n` is multiplied by the unit complex number `cos φ n + i · sin φ n`:

      (xr + i·xi)(c + i·s) = (xr·c − xi·s) + i·(xr·s + xi·c),

  and the result is returned as a 2 × 16384 × 4096 array, the real part first and the imaginary part second. The
  products and the sum are written in exactly that order and grouping, so the definition is stated for any float
  instance and no law of arithmetic is used anywhere: both programs compute this very expression.

  `rotated` is the whole array; `rotatedBlock` is the same expression over a block of 128 rows of the two parts
  beside one row of cosines and one row of sines, which is what one grid point of the kernel sees.
-/
import Idealize.ShloMosaic.Lib.ValueIdx

noncomputable section

namespace Cert.ColumnRotation

open Idealize.ShloMosaic Idealize.ShloMosaic.ValueIdx

variable {F : FTy → Type} [FloatOps F]

/-- Part `p` (0 the real part, 1 the imaginary part) of the product of `xr + i·xi` with `c + i·s`. -/
def part (p : Fin 2) (xr xi c s : F .f32) : F .f32 :=
  if p.val = 0 then FloatOps.subf (FloatOps.mulf xr c) (FloatOps.mulf xi s)
  else FloatOps.addf (FloatOps.mulf xr s) (FloatOps.mulf xi c)

theorem part_zero (xr xi c s : F .f32) :
    part (0 : Fin 2) xr xi c s = FloatOps.subf (FloatOps.mulf xr c) (FloatOps.mulf xi s) := if_pos rfl

theorem part_one (xr xi c s : F .f32) :
    part (1 : Fin 2) xr xi c s = FloatOps.addf (FloatOps.mulf xr s) (FloatOps.mulf xi c) := if_neg (by decide)

/-- The same part of two products whose four factors agree. -/
theorem part_congr (p : Fin 2) {a a' b b' c c' s s' : F .f32} (ha : a = a') (hb : b = b') (hc : c = c') (hs : s = s') :
    part p a b c s = part p a' b' c' s' := by rw [ha, hb, hc, hs]

/-- Entry `(p, b, n)` of the rotated matrix: part `p` of entry `(b, n)` times the unit number of angle `φ n`. -/
def entry (xr xi : FVec F ⟨2, ![16384, 4096]⟩ .f32) (φ : FVec F ⟨1, ![4096]⟩ .f32)
    (p : Fin 2) (b : Fin 16384) (n : Fin 4096) : F .f32 :=
  part p (xr (ix2 b n)) (xi (ix2 b n)) (FloatOps.hostUnary .cos (φ (ix1 n))) (FloatOps.hostUnary .sin (φ (ix1 n)))

/-- The rotated matrix, real part then imaginary part. -/
def rotated (xr xi : FVec F ⟨2, ![16384, 4096]⟩ .f32) (φ : FVec F ⟨1, ![4096]⟩ .f32) :
    FVec F ⟨3, ![2, 16384, 4096]⟩ .f32 :=
  fun i => entry xr xi φ (i 0) (i 1) (i 2)

theorem rotated_ix3 (xr xi : FVec F ⟨2, ![16384, 4096]⟩ .f32) (φ : FVec F ⟨1, ![4096]⟩ .f32)
    (p : Fin 2) (b : Fin 16384) (n : Fin 4096) : rotated xr xi φ (ix3 p b n) = entry xr xi φ p b n := rfl

/-- Entry `(p, r, n)` of the rotation of a block of 128 rows, the cosines and sines given as one row each. -/
def blockEntry (x0 x1 : FVec F ⟨2, ![128, 4096]⟩ .f32) (c s : FVec F ⟨2, ![1, 4096]⟩ .f32)
    (p : Fin 2) (r : Fin 128) (n : Fin 4096) : F .f32 :=
  part p (x0 (ix2 r n)) (x1 (ix2 r n)) (c (ix2 (0 : Fin 1) n)) (s (ix2 (0 : Fin 1) n))

/-- The rotation of a block of 128 rows. -/
def rotatedBlock (x0 x1 : FVec F ⟨2, ![128, 4096]⟩ .f32) (c s : FVec F ⟨2, ![1, 4096]⟩ .f32) :
    FVec F ⟨3, ![2, 128, 4096]⟩ .f32 :=
  fun y => blockEntry x0 x1 c s (y 0) (y 1) (y 2)

theorem rotatedBlock_ix3 (x0 x1 : FVec F ⟨2, ![128, 4096]⟩ .f32) (c s : FVec F ⟨2, ![1, 4096]⟩ .f32)
    (p : Fin 2) (r : Fin 128) (n : Fin 4096) : rotatedBlock x0 x1 c s (ix3 p r n) = blockEntry x0 x1 c s p r n := rfl

end Cert.ColumnRotation

end
-- ==== Proof.ReferenceValue.lean ====
/-
  The reference computes the column rotation.

  The reference takes the cosine and the sine of the row of angles, lays each row under every one of the 16384
  rows of the matrix, forms `xr·c − xi·s` and `xr·s + xi·c` entry by entry, and joins the two results along a new
  leading axis. Read at an index `(p, b, n)`, the joined array is its first piece at `(0, b, n)` when `p = 0`
  and its second piece at `(0, b, n)` when `p = 1`; each piece read there is the matching part of entry `(b, n)`
  times the unit complex number of angle `φ n`. That is `ColumnRotation.rotated`, with no arithmetic law used.
-/
import proofs.«113224_j40243843564154_2_alg».proof.Proof.Gen.ReferenceIdeal.Read
import proofs.«113224_j40243843564154_2_alg».proof.Proof.Rotation
import Idealize.ShloMosaic.Lib.ValueIdx
import Idealize.ShloMosaic.Lib.Pipeline.Value

noncomputable section

namespace Cert.ReferenceIdeal.RefValue

open Cert.ReferenceIdeal Cert.ReferenceIdeal.Gen Cert.ReferenceIdeal.Read Cert.ColumnRotation
open Idealize.ShloMosaic Idealize.ShloMosaic.ValueIdx

variable {F : FTy → Type} [FloatOps F]

/-- Laying the row of 4096 values under row `b` and reading column `n` reads value `n` (the first broadcast). -/
theorem rowIdx (b : Fin 16384) (n : Fin 4096) : idx_main_v2 (idx_main_v3 (ix2 b n)) = ix1 n :=
  funext fun a => match a with | ⟨0, _⟩ => rfl

/-- The stacked piece at `(u, b, n)` reads the matrix at `(b, n)`. -/
theorem pieceIdx (u : Fin 1) (b : Fin 16384) (n : Fin 4096) : idx_main_v16 (ix3 u b n) = ix2 b n :=
  funext fun a => match a with | ⟨0, _⟩ => rfl | ⟨1, _⟩ => rfl

/-- The real part before stacking, at `(b, n)`: `xr·cos φ − xi·sin φ`. -/
theorem real_apply (x0 x1 : (⟨S16384x4096, .f32⟩ : BufTy).Contents (Elt F)) (x2 : (⟨S4096, .f32⟩ : BufTy).Contents (Elt F))
    (b : Fin 16384) (n : Fin 4096) :
    val_main_v8 (F := F) x0 x1 x2 (ix2 b n) = entry x0 x1 x2 (0 : Fin 2) b n := by
  rw [val_main_v8_apply, val_main_v4_apply, val_main_v7_apply, val_main_v3_apply, val_main_v2_apply, val_main_v0_apply,
    val_main_v6_apply, val_main_v5_apply, val_main_v1_apply]
  unfold entry
  rw [part_zero]
  exact congrArg₂ FloatOps.subf
    (congrArg (FloatOps.mulf (x0 (ix2 b n))) (congrArg (fun k => FloatOps.hostUnary .cos (x2 k)) (rowIdx b n)))
    (congrArg (FloatOps.mulf (x1 (ix2 b n))) (congrArg (fun k => FloatOps.hostUnary .sin (x2 k)) (rowIdx b n)))

/-- The imaginary part before stacking, at `(b, n)`: `xr·sin φ + xi·cos φ`. -/
theorem imag_apply (x0 x1 : (⟨S16384x4096, .f32⟩ : BufTy).Contents (Elt F)) (x2 : (⟨S4096, .f32⟩ : BufTy).Contents (Elt F))
    (b : Fin 16384) (n : Fin 4096) :
    val_main_v15 (F := F) x0 x1 x2 (ix2 b n) = entry x0 x1 x2 (1 : Fin 2) b n := by
  rw [val_main_v15_apply, val_main_v11_apply, val_main_v14_apply, val_main_v10_apply, val_main_v9_apply, val_main_v1_apply,
    val_main_v13_apply, val_main_v12_apply, val_main_v0_apply]
  unfold entry
  rw [part_one]
  exact congrArg₂ FloatOps.addf
    (congrArg (FloatOps.mulf (x0 (ix2 b n))) (congrArg (fun k => FloatOps.hostUnary .sin (x2 k)) (rowIdx b n)))
    (congrArg (FloatOps.mulf (x1 (ix2 b n))) (congrArg (fun k => FloatOps.hostUnary .cos (x2 k)) (rowIdx b n)))

/-- THE REFERENCE'S RESULT is the rotated matrix: the join of the two parts read at `(p, b, n)` is part `p`. -/
theorem result_eq (x0 x1 : (⟨S16384x4096, .f32⟩ : BufTy).Contents (Elt F)) (x2 : (⟨S4096, .f32⟩ : BufTy).Contents (Elt F)) :
    val_main_v18 (F := F) x0 x1 x2 = rotated x0 x1 x2 := by
  funext i
  obtain ⟨p, b, n, rfl⟩ : ∃ (p : Fin 2) (b : Fin 16384) (n : Fin 4096), i = ix3 p b n := ⟨i 0, i 1, i 2, eq_ix3 i⟩
  rw [rotated_ix3]
  unfold val_main_v18
  match p with
  | ⟨0, _⟩ =>
    refine (concatenate_pair_apply_left (t := S2x16384x4096) (s₁ := S1x16384x4096) (s₂ := S1x16384x4096) (0 : Fin S2x16384x4096.rank) _ _ _ (ix3 (⟨0, by decide⟩ : Fin 2) b n) rfl
      (ix3 (0 : Fin 1) b n) (fun a => ?_)).trans ?_
    · match a with
      | ⟨0, _⟩ => rfl
      | ⟨1, _⟩ => rfl
      | ⟨2, _⟩ => rfl
    · rw [val_main_v16_apply, pieceIdx]
      exact real_apply x0 x1 x2 b n
  | ⟨1, _⟩ =>
    refine (concatenate_pair_apply_right (t := S2x16384x4096) (s₁ := S1x16384x4096) (s₂ := S1x16384x4096) (0 : Fin S2x16384x4096.rank) _ _ _ (ix3 (⟨1, by decide⟩ : Fin 2) b n) rfl rfl
      (ix3 (0 : Fin 1) b n) (fun a ha => ?_) rfl).trans ?_
    · match a with
      | ⟨0, _⟩ => exact absurd rfl ha
      | ⟨1, _⟩ => rfl
      | ⟨2, _⟩ => rfl
    · rw [val_main_v17_apply, show idx_main_v17 (ix3 (0 : Fin 1) b n) = ix2 b n from pieceIdx 0 b n]
      exact imag_apply x0 x1 x2 b n

end Cert.ReferenceIdeal.RefValue

end
-- ==== Proof.BodyValue.lean ====
/-
  One grid point of the kernel rotates a block of 128 rows.

  The body loads the row of cosines `c` and the row of sines `s` (each 1 × 4096), a block of 128 rows of the real
  part `xr` and of the imaginary part `xi`, lays `c` and `s` under every row of the block, and stores
  `xr·c − xi·s` into the first half of its 2 × 128 × 4096 output block and `xr·s + xi·c` into the second half.
  The two stores together fill the output block, and each stored value, read at an index of its half, is the matching
  part of the product of entry `(r, n)` with `c n + i·s n`. So the block the body leaves is
  `ColumnRotation.rotatedBlock` of the four blocks it loaded: a buffer filled piece by piece by values that are
  all blocks of one function holds that function.
-/
import proofs.«113224_j40243843564154_2_alg».proof.Proof.Gen.KernelIdeal.Frame
import proofs.«113224_j40243843564154_2_alg».proof.Proof.Rotation
import Idealize.ShloMosaic.Lib.ValueIdx
import Idealize.ShloMosaic.Lib.ValueLayout
import Idealize.ShloMosaic.Lib.Pipeline.Value

noncomputable section

namespace Cert.KernelIdeal.BodyValue

open Cert.KernelIdeal Cert.KernelIdeal.Gen Cert.ColumnRotation
open Idealize.ShloMosaic Idealize.ShloMosaic.ValueIdx

variable {F : FTy → Type} [FloatOps F]

/-- The value stored into the first half, at `(u, r, n)`: the real part of entry `(r, n)` times `c n + i·s n`. -/
theorem real_apply (v0 v2 : Vec F S1x4096 .f32) (v4 v5 : Vec F S128x4096 .f32) (u : Fin 1) (r : Fin 128) (n : Fin 4096) :
    k0_pay3 v0 v2 v4 v5 (ix3 u r n) = blockEntry v4 v5 v0 v2 (0 : Fin 2) r n := by
  unfold k0_pay3 k0_pay1 k0_pay2
  refine (shapeCast_ab_1ab_apply _ _ u r n).trans ?_
  unfold blockEntry
  rw [part_zero]
  refine congrArg₂ FloatOps.subf (congrArg (FloatOps.mulf (v4 (ix2 r n))) ?_) (congrArg (FloatOps.mulf (v5 (ix2 r n))) ?_)
  · refine (broadcastTo_1b_ab_apply _ _ r n).trans ?_
    rw [shapeCast_self]
  · refine (broadcastTo_1b_ab_apply _ _ r n).trans ?_
    rw [shapeCast_self]

/-- The value stored into the second half, at `(u, r, n)`: the imaginary part of entry `(r, n)` times `c n + i·s n`. -/
theorem imag_apply (v0 v2 : Vec F S1x4096 .f32) (v4 v5 : Vec F S128x4096 .f32) (u : Fin 1) (r : Fin 128) (n : Fin 4096) :
    k0_pay4 v0 v2 v4 v5 (ix3 u r n) = blockEntry v4 v5 v0 v2 (1 : Fin 2) r n := by
  unfold k0_pay4 k0_pay1 k0_pay2
  refine (shapeCast_ab_1ab_apply _ _ u r n).trans ?_
  unfold blockEntry
  rw [part_one]
  refine congrArg₂ FloatOps.addf (congrArg (FloatOps.mulf (v4 (ix2 r n))) ?_) (congrArg (FloatOps.mulf (v5 (ix2 r n))) ?_)
  · refine (broadcastTo_1b_ab_apply _ _ r n).trans ?_
    rw [shapeCast_self]
  · refine (broadcastTo_1b_ab_apply _ _ r n).trans ?_
    rw [shapeCast_self]

theorem zeros2 : (![0, 0] : Fin 2 → Nat) = fun _ => 0 := funext fun a => by fin_cases a <;> rfl

/-- An index `(u, r, n)` of the first half sits in the output block at `(0, r, n)`. -/
theorem emb_first (u : Fin 1) (r : Fin 128) (n : Fin 4096) :
    r0_2.emb (ix3 u r n) = ix3 (0 : Fin 2) r n := by
  funext a; apply Fin.ext
  have hu : u.val = 0 := by omega
  match a with
  | ⟨0, _⟩ => show 0 + 1 * u.val = 0; omega
  | ⟨1, _⟩ => show 0 + 1 * r.val = r.val; omega
  | ⟨2, _⟩ => show 0 + 1 * n.val = n.val; omega

/-- An index `(u, r, n)` of the second half sits in the output block at `(1, r, n)`. -/
theorem emb_second (u : Fin 1) (r : Fin 128) (n : Fin 4096) :
    r0_3.emb (ix3 u r n) = ix3 (1 : Fin 2) r n := by
  funext a; apply Fin.ext
  have hu : u.val = 0 := by omega
  match a with
  | ⟨0, _⟩ => show 1 + 1 * u.val = 1; omega
  | ⟨1, _⟩ => show 0 + 1 * r.val = r.val; omega
  | ⟨2, _⟩ => show 0 + 1 * n.val = n.val; omega

/-- WHAT THE BODY LEAVES in its output block: the rotation of the block of rows it loaded. -/
theorem out_eq (x0 x1 : Vec F S128x4096 .f32) (x2 x3 : Vec F S1x4096 .f32) :
    out0_4 x0 x1 x2 x3 = rotatedBlock x0 x1 x2 x3 := by
  funext y
  unfold out0_4
  rw [View.ld_unit_zero (S := S1x4096) zeros2, View.ld_unit_zero (S := S1x4096) zeros2,
    View.ld_unit_zero (S := S128x4096) zeros2, View.ld_unit_zero (S := S128x4096) zeros2]
  refine View.canon_apply_of_pieces (rotatedBlock x0 x1 x2 x3) _ ?_ y (cover0_4 _ _ y)
  intro p hp x
  rcases List.mem_cons.mp hp with rfl | hp
  · obtain ⟨u, r, n, rfl⟩ : ∃ (u : Fin 1) (r : Fin 128) (n : Fin 4096), x = ix3 u r n := ⟨x 0, x 1, x 2, eq_ix3 x⟩
    show k0_pay4 x2 x3 x0 x1 (ix3 u r n) = rotatedBlock x0 x1 x2 x3 (r0_3.emb (ix3 u r n))
    rw [emb_second, rotatedBlock_ix3]
    exact imag_apply x2 x3 x0 x1 u r n
  · rcases List.mem_singleton.mp hp with rfl
    obtain ⟨u, r, n, rfl⟩ : ∃ (u : Fin 1) (r : Fin 128) (n : Fin 4096), x = ix3 u r n := ⟨x 0, x 1, x 2, eq_ix3 x⟩
    show k0_pay3 x2 x3 x0 x1 (ix3 u r n) = rotatedBlock x0 x1 x2 x3 (r0_2.emb (ix3 u r n))
    rw [emb_first, rotatedBlock_ix3]
    exact real_apply x2 x3 x0 x1 u r n

end Cert.KernelIdeal.BodyValue

end
-- ==== Proof.HostRows.lean ====
/-
  The rows of cosines and sines the kernel's grid finds.

  Before the grid starts, the program takes the cosine and the sine of the row of 4096 angles and views each result as
  a 1 × 4096 matrix. So the two one-row arrays the grid reads hold, at `(0, n)`, the cosine and the sine of angle `n`.
-/
import proofs.«113224_j40243843564154_2_alg».proof.Proof.Gen.KernelIdeal.Frame
import Idealize.ShloMosaic.Lib.ValueIdx
import Idealize.ShloMosaic.Lib.ValueLayout
import Idealize.ShloMosaic.Lib.StableHlo.Run

noncomputable section

namespace Cert.KernelIdeal.HostRows

open Cert.KernelIdeal Cert.KernelIdeal.Gen
open Idealize.ShloMosaic Idealize.ShloMosaic.TcCoe Idealize.ShloMosaic.ValueIdx Idealize.SL.Sem Idealize.ShloMosaic.StableHlo

variable {F : FTy → Type} [FloatOps F]
variable (m : (ℓ : Loc nD τ sig) → Buf (Elt F) ℓ)

/-- The row of cosines as the grid finds it: the cosine of the angles, viewed as one row. -/
theorem cosRow (c : Dev nD) :
    (V m c main_v1 : S1x4096.Idx → Elt F .f32)
      = shapeCast S1x4096 (Host.cos (m ((c : Thread nD τ).loc main_arg2))) shapeCasts_S4096_S1x4096 := by
  dsimp only [V, hostOps0]; after_results; rfl

/-- The row of sines as the grid finds it: the sine of the angles, viewed as one row. -/
theorem sinRow (c : Dev nD) :
    (V m c main_v3 : S1x4096.Idx → Elt F .f32)
      = shapeCast S1x4096 (Host.sin (m ((c : Thread nD τ).loc main_arg2))) shapeCasts_S4096_S1x4096 := by
  dsimp only [V, hostOps0]; after_results; rfl

/-- Entry `(u, n)` of the row of cosines is the cosine of angle `n`. -/
theorem cosRow_apply (c : Dev nD) (u : Fin 1) (n : Fin 4096) :
    (V m c main_v1 : S1x4096.Idx → Elt F .f32) (ix2 u n)
      = FloatOps.hostUnary .cos ((m ((c : Thread nD τ).loc main_arg2) : S4096.Idx → Elt F .f32) (ix1 n)) :=
  (congrFun (cosRow m c) (ix2 u n)).trans (shapeCast_a_1a_apply _ _ u n)

/-- Entry `(u, n)` of the row of sines is the sine of angle `n`. -/
theorem sinRow_apply (c : Dev nD) (u : Fin 1) (n : Fin 4096) :
    (V m c main_v3 : S1x4096.Idx → Elt F .f32) (ix2 u n)
      = FloatOps.hostUnary .sin ((m ((c : Thread nD τ).loc main_arg2) : S4096.Idx → Elt F .f32) (ix1 n)) :=
  (congrFun (sinRow m c) (ix2 u n)).trans (shapeCast_a_1a_apply _ _ u n)

end Cert.KernelIdeal.HostRows

end
-- ==== Proof.KernelValue.lean ====
/-
  The kernel's grid computes the column rotation.

  The grid has 128 points. Point `t` reads rows `128 t … 128 t + 127` of the real part and of the imaginary part, the
  whole row of cosines and the whole row of sines, and writes back rows `128 t … 128 t + 127` of both halves of the
  2 × 16384 × 4096 result. The body turns what it reads into the rotation of that block of rows (`BodyValue.out_eq`),
  and the rows of cosines and sines are the cosine and sine of the angles (`HostRows`). An entry `(p, r, n)` of the
  block written back at point `t` is entry `(p, 128 t + r, n)` of the result, and it reads entries `(128 t + r, n)`
  of the two parts and entry `n` of the angles: so what point `t` writes back is block `t` of the rotated matrix.
  Row `b` of the result lies in the block of point `b / 128`, so the 128 blocks fill the result, which therefore
  ends holding the rotated matrix.
-/
import proofs.«113224_j40243843564154_2_alg».proof.Proof.Gen.KernelIdeal.Value
import proofs.«113224_j40243843564154_2_alg».proof.Proof.BodyValue
import proofs.«113224_j40243843564154_2_alg».proof.Proof.HostRows
import proofs.«113224_j40243843564154_2_alg».proof.Proof.Rotation
import Idealize.ShloMosaic.Lib.ValueIdx
import Idealize.ShloMosaic.Lib.Pipeline.Value

noncomputable section

namespace Cert.KernelIdeal.GridValue

open Cert.KernelIdeal Cert.KernelIdeal.Gen Cert.ColumnRotation
open Idealize.ShloMosaic Idealize.ShloMosaic.TcCoe Idealize.ShloMosaic.ValueIdx Idealize.SL.Sem
open Idealize.ShloMosaic.Pipeline (Dat)

variable {F : FTy → Type} [FloatOps F]
variable (m : (ℓ : Loc nD τ sig) → Buf (Elt F) ℓ) (ρ : Dev nD → PrngReg)

/-- Which blocks point `t` touches, decided over the 128 points: block `t` along the rows of the two parts and of
    both halves of the result, and the one block of each one-row array. -/
theorem blockIndices : ∀ t : Fin cfg0.N,
    win0_4.index t (0 : Fin 3) = 0 ∧ win0_4.index t (1 : Fin 3) = t.val ∧ win0_4.index t (2 : Fin 3) = 0
    ∧ win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0 :=
  (by decide +kernel : ∀ t : Fin grid0.N, _)

/-- Entry `(r, n)` of the block of the real part read at point `t` is entry `(128 t + r, n)` of the real part. -/
theorem realRows (c : Dev nD) (t : Fin cfg0.N) (r : Fin 128) (n : Fin 4096) (b : Fin 16384) (hb : b.val = t.val * 128 + r.val) :
    iblk m c 0 t (ix2 r n) = (V m c main_arg0 : S16384x4096.Idx → Elt F .f32) (ix2 b n) := by
  obtain ⟨-, -, -, e0, e1, -⟩ := blockIndices t
  show V m c main_arg0 (((cfg0.win 0).blk t).view.emb (ix2 r n)) = V m c main_arg0 (ix2 b n)
  have h : ((cfg0.win 0).blk t).view.emb (ix2 r n) = ix2 b n := by
    funext a; apply Fin.ext
    match a with
    | ⟨0, _⟩ => show win0_0.index t (0 : Fin 2) * 128 + 1 * r.val = b.val; rw [e0, hb]; omega
    | ⟨1, _⟩ => show win0_0.index t (1 : Fin 2) * 4096 + 1 * n.val = n.val; rw [e1]; omega
  rw [h]

/-- Entry `(r, n)` of the block of the imaginary part read at point `t` is entry `(128 t + r, n)` of the imaginary part. -/
theorem imagRows (c : Dev nD) (t : Fin cfg0.N) (r : Fin 128) (n : Fin 4096) (b : Fin 16384) (hb : b.val = t.val * 128 + r.val) :
    iblk m c 1 t (ix2 r n) = (V m c main_arg1 : S16384x4096.Idx → Elt F .f32) (ix2 b n) := by
  obtain ⟨-, -, -, -, -, e0, e1, -⟩ := blockIndices t
  show V m c main_arg1 (((cfg0.win 1).blk t).view.emb (ix2 r n)) = V m c main_arg1 (ix2 b n)
  have h : ((cfg0.win 1).blk t).view.emb (ix2 r n) = ix2 b n := by
    funext a; apply Fin.ext
    match a with
    | ⟨0, _⟩ => show win0_1.index t (0 : Fin 2) * 128 + 1 * r.val = b.val; rw [e0, hb]; omega
    | ⟨1, _⟩ => show win0_1.index t (1 : Fin 2) * 4096 + 1 * n.val = n.val; rw [e1]; omega
  rw [h]

/-- Entry `(0, n)` of the row of cosines read at point `t` is the cosine of angle `n`. -/
theorem cosines (c : Dev nD) (t : Fin cfg0.N) (n : Fin 4096) :
    iblk m c 2 t (ix2 (0 : Fin 1) n)
      = FloatOps.hostUnary .cos ((m ((c : Thread nD τ).loc main_arg2) : S4096.Idx → Elt F .f32) (ix1 n)) := by
  obtain ⟨-, -, -, -, -, -, -, e0, e1, -⟩ := blockIndices t
  show V m c main_v1 (((cfg0.win 2).blk t).view.emb (ix2 (0 : Fin 1) n)) = _
  have h : ((cfg0.win 2).blk t).view.emb (ix2 (0 : Fin 1) n) = ix2 (0 : Fin 1) n := by
    funext a; apply Fin.ext
    match a with
    | ⟨0, _⟩ => show win0_2.index t (0 : Fin 2) * 1 + 1 * 0 = 0; rw [e0]
    | ⟨1, _⟩ => show win0_2.index t (1 : Fin 2) * 4096 + 1 * n.val = n.val; rw [e1]; omega
  rw [h]
  exact HostRows.cosRow_apply m c 0 n

/-- Entry `(0, n)` of the row of sines read at point `t` is the sine of angle `n`. -/
theorem sines (c : Dev nD) (t : Fin cfg0.N) (n : Fin 4096) :
    iblk m c 3 t (ix2 (0 : Fin 1) n)
      = FloatOps.hostUnary .sin ((m ((c : Thread nD τ).loc main_arg2) : S4096.Idx → Elt F .f32) (ix1 n)) := by
  obtain ⟨-, -, -, -, -, -, -, -, -, e0, e1⟩ := blockIndices t
  show V m c main_v3 (((cfg0.win 3).blk t).view.emb (ix2 (0 : Fin 1) n)) = _
  have h : ((cfg0.win 3).blk t).view.emb (ix2 (0 : Fin 1) n) = ix2 (0 : Fin 1) n := by
    funext a; apply Fin.ext
    match a with
    | ⟨0, _⟩ => show win0_3.index t (0 : Fin 2) * 1 + 1 * 0 = 0; rw [e0]
    | ⟨1, _⟩ => show win0_3.index t (1 : Fin 2) * 4096 + 1 * n.val = n.val; rw [e1]; omega
  rw [h]
  exact HostRows.sinRow_apply m c 0 n

/-- Entry `(p, r, n)` of the block written back at point `t` sits in the result at `(p, 128 t + r, n)`. -/
theorem resultRows (t : Fin cfg0.N) (p : Fin 2) (r : Fin 128) (n : Fin 4096) (b : Fin 16384) (hb : b.val = t.val * 128 + r.val) :
    ((cfg0.win 4).blk t).view.emb (ix3 p r n) = ix3 p b n := by
  obtain ⟨e0, e1, e2, -⟩ := blockIndices t
  funext a; apply Fin.ext
  match a with
  | ⟨0, _⟩ => show win0_4.index t (0 : Fin 3) * 2 + 1 * p.val = p.val; rw [e0]; omega
  | ⟨1, _⟩ => show win0_4.index t (1 : Fin 3) * 128 + 1 * r.val = b.val; rw [e1, hb]; omega
  | ⟨2, _⟩ => show win0_4.index t (2 : Fin 3) * 4096 + 1 * n.val = n.val; rw [e2]; omega

/-- WHAT POINT `t` WRITES BACK is block `t` of the rotated matrix. -/
theorem flushed_eq (c : Dev nD) (t : Fin cfg0.N) :
    (dats m 0 c).flushed 4 t = ((cfg0.win 4).blk t).view.read (Elt F)
      (rotated (V m c main_arg0) (V m c main_arg1) (m ((c : Thread nD τ).loc main_arg2))) := by
  rw [Value.flushed4, BodyValue.out_eq]
  funext y
  obtain ⟨p, r, n, rfl⟩ : ∃ (p : Fin 2) (r : Fin 128) (n : Fin 4096), y = ix3 p r n := ⟨y 0, y 1, y 2, eq_ix3 y⟩
  have ht : t.val < 128 := Nat.lt_of_lt_of_eq t.isLt (show cfg0.N = 128 from N_0)
  have hlt : t.val * 128 + r.val < 16384 := by have := r.isLt; omega
  show blockEntry (iblk m c 0 t) (iblk m c 1 t) (iblk m c 2 t) (iblk m c 3 t) p r n
    = rotated (V m c main_arg0) (V m c main_arg1) (m ((c : Thread nD τ).loc main_arg2)) (((cfg0.win 4).blk t).view.emb (ix3 p r n))
  rw [resultRows t p r n ⟨t.val * 128 + r.val, hlt⟩ rfl, rotated_ix3]
  unfold blockEntry entry
  exact part_congr p (realRows m c t r n _ rfl) (imagRows m c t r n _ rfl) (cosines m c t n) (sines m c t n)

/-- An index of the result is in point `t`'s block iff each coordinate is in the block's range on its axis. -/
theorem mem_blk (t : Fin cfg0.N) (i : S2x16384x4096.Idx) :
    i ∈ ((cfg0.win 4).blk t).view.set ↔ ∀ a : Fin 3, win0_4.index t a * S2x128x4096.size a ≤ (i a).val
      ∧ (i a).val < win0_4.index t a * S2x128x4096.size a + S2x128x4096.size a := by
  show i ∈ ((View.whole main_v4).slice (win0_4.rect t)).set ↔ _
  rw [View.set_slice_whole, Rect.mem_set_unit]
  exact Iff.rfl

/-- The 128 blocks fill the result: row `b` lies in the block of point `b / 128`. -/
theorem covered (i : S2x16384x4096.Idx) :
    ∃ t : Fin cfg0.N, (cfg0.win 4).flush t = true ∧ i ∈ ((cfg0.win 4).blk t).view.set := by
  have h0 : (i 0).val < 2 := (i 0).isLt
  have h1 : (i 1).val < 16384 := (i 1).isLt
  have h2 : (i 2).val < 4096 := (i 2).isLt
  have hN : (i 1).val / 128 < cfg0.N := by rw [show cfg0.N = 128 from N_0]; omega
  refine ⟨⟨(i 1).val / 128, hN⟩, flush0_4 _, ?_⟩
  rw [mem_blk]
  obtain ⟨e0, e1, e2, -⟩ := blockIndices ⟨(i 1).val / 128, hN⟩
  intro a
  match a with
  | ⟨0, _⟩ =>
    show win0_4.index ⟨(i 1).val / 128, hN⟩ (0 : Fin 3) * 2 ≤ (i 0).val ∧ (i 0).val < win0_4.index ⟨(i 1).val / 128, hN⟩ (0 : Fin 3) * 2 + 2
    rw [e0]; omega
  | ⟨1, _⟩ =>
    show win0_4.index ⟨(i 1).val / 128, hN⟩ (1 : Fin 3) * 128 ≤ (i 1).val ∧ (i 1).val < win0_4.index ⟨(i 1).val / 128, hN⟩ (1 : Fin 3) * 128 + 128
    rw [e1]; show (i 1).val / 128 * 128 ≤ (i 1).val ∧ (i 1).val < (i 1).val / 128 * 128 + 128; omega
  | ⟨2, _⟩ =>
    show win0_4.index ⟨(i 1).val / 128, hN⟩ (2 : Fin 3) * 4096 ≤ (i 2).val ∧ (i 2).val < win0_4.index ⟨(i 1).val / 128, hN⟩ (2 : Fin 3) * 4096 + 4096
    rw [e2]; omega

/-- THE RESULT after the run is the rotated matrix of the arguments as launched. -/
theorem final (c : Dev nD) :
    (dats m 0 c).arrAt 4 cfg0.N
      = rotated (m ((c : Thread nD τ).loc main_arg0)) (m ((c : Thread nD τ).loc main_arg1)) (m ((c : Thread nD τ).loc main_arg2)) := by
  rw [(dats m 0 c).arrAt_eq_of_cover 4
    (rotated (V m c main_arg0) (V m c main_arg1) (m ((c : Thread nD τ).loc main_arg2)))
    (fun t _ => flushed_eq m c t) covered, V_main_arg0, V_main_arg1]

/-- The kernel's run: every weakly fair execution terminates with the result at the rotated matrix of the arguments
    and the arguments unchanged. -/
theorem run : θ_run defs (onTc (τ := τ) (main (F := F))) ⟨m, fun _ => 0, ρ⟩ fun r => ∀ c : Dev nD,
      r.2.mem ((c : Thread nD τ).loc main_v4)
        = rotated (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩) (Value.run_blocks m ρ)

end Cert.KernelIdeal.GridValue

end
-- ==== Proof.lean ====
/-
  The kernel and its reference both rotate the columns of a complex matrix by a row of angles.

  Arguments: the real part `xr` and the imaginary part `xi` of a 16384 × 4096 complex matrix, and a row `φ` of 4096
  angles. Result, a 2 × 16384 × 4096 array: the real part `xr·cos φ − xi·sin φ` and the imaginary part
  `xr·sin φ + xi·cos φ` of the matrix whose column `n` has been multiplied by `cos φ n + i·sin φ n`
  (`ColumnRotation.rotated`, Proof/Rotation.lean).

  * The reference forms the two parts over the whole matrix and joins them (Proof/ReferenceValue.lean).
  * The kernel takes the cosines and sines once, then walks a grid of 128 points; point `t` rotates rows
    `128 t … 128 t + 127` and writes them into both halves of the result (Proof/BodyValue.lean for one block,
    Proof/HostRows.lean for the rows of cosines and sines, Proof/KernelValue.lean for the 128 blocks filling the result).

  Both programs write the products and the sum of the rotation in the same order and grouping, so the two results are
  the same expression entry by entry: no law of arithmetic is needed, and in particular nothing about the inputs being
  finite. The three frame claims are the programs' runs with the results forgotten; the idealization rewrote nothing, so
  there is nothing to preserve.
-/
import proofs.«113224_j40243843564154_2_alg».proof.Defs
import proofs.«113224_j40243843564154_2_alg».proof.Proof.Gen.Kernel
import proofs.«113224_j40243843564154_2_alg».proof.Proof.Gen.Kernel.Skeleton
import proofs.«113224_j40243843564154_2_alg».proof.Proof.Gen.Kernel.Launch
import proofs.«113224_j40243843564154_2_alg».proof.Proof.Gen.Kernel.Points
import proofs.«113224_j40243843564154_2_alg».proof.Proof.Gen.Kernel.Frame
import proofs.«113224_j40243843564154_2_alg».proof.Proof.Gen.KernelIdeal
import proofs.«113224_j40243843564154_2_alg».proof.Proof.Gen.KernelIdeal.Skeleton
import proofs.«113224_j40243843564154_2_alg».proof.Proof.Gen.KernelIdeal.Launch
import proofs.«113224_j40243843564154_2_alg».proof.Proof.Gen.KernelIdeal.Points
import proofs.«113224_j40243843564154_2_alg».proof.Proof.Gen.KernelIdeal.Frame
import proofs.«113224_j40243843564154_2_alg».proof.Proof.Gen.ReferenceIdeal
import proofs.«113224_j40243843564154_2_alg».proof.Proof.Gen.Pre_finite_inputs
import proofs.«113224_j40243843564154_2_alg».proof.Proof.Gen.KernelIdeal.Value
import proofs.«113224_j40243843564154_2_alg».proof.Proof.Gen.ReferenceIdeal.Run
import proofs.«113224_j40243843564154_2_alg».proof.Proof.Gen.ReferenceIdeal.Read
import proofs.«113224_j40243843564154_2_alg».proof.Proof.Rotation
import proofs.«113224_j40243843564154_2_alg».proof.Proof.ReferenceValue
import proofs.«113224_j40243843564154_2_alg».proof.Proof.KernelValue
import Idealize.ShloMosaic.Adequacy
import Idealize.ShloMosaic.Init

noncomputable section

namespace Cert.Proof

open Idealize.ShloMosaic Idealize.ShloMosaic.TcCoe Idealize.SL.Sem Cert.ColumnRotation

/-- The word-level kernel runs and leaves its arguments as they were. -/
theorem frame_kernel : Cert.frame_Kernel := fun m ρ _ => Cert.Kernel.Gen.frame m ρ

/-- So does the kernel read over the extended reals. -/
theorem frame_kernelIdeal : Cert.frame_KernelIdeal := fun m ρ _ => Cert.KernelIdeal.Gen.frame m ρ

/-- The reference runs and leaves its arguments as they were: its run with the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- From arguments that agree, the kernel's result and the reference's are both the rotated matrix of the arguments. -/
theorem algebraic : Cert.algebraic_KernelIdeal_ReferenceIdeal := by
  intro m ρ m' ρ' _ hagree
  refine ⟨_, Cert.KernelIdeal.GridValue.run (F := Ideal) m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v18_eq, Cert.ReferenceIdeal.RefValue.result_eq,
    (hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
